-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x8192x128 : Shape := ⟨3, ![64, 8192, 128]⟩
abbrev S64x128x128 : Shape := ⟨3, ![64, 128, 128]⟩
abbrev S64x1x128 : Shape := ⟨3, ![64, 1, 128]⟩
abbrev S_ : Shape := ⟨0, ![]⟩

class Facts : Prop where
  bcast_S_S64x8192x128 : S_.BroadcastsInDim S64x8192x128 (![] : Fin 0 → Fin S64x8192x128.rank)
  reducesTo_S64x8192x128_S_d0_1_2 : S64x8192x128.ReducesTo [0, 1, 2] S_
  h_S_ : 0 < S_.numel
  bcast_S_S64x128x128 : S_.BroadcastsInDim S64x128x128 (![] : Fin 0 → Fin S64x128x128.rank)
  reducesTo_S64x128x128_S_d0_1_2 : S64x128x128.ReducesTo [0, 1, 2] S_
  bcast_S_S64x1x128 : S_.BroadcastsInDim S64x1x128 (![] : Fin 0 → Fin S64x1x128.rank)
  reducesTo_S64x1x128_S_d0_1_2 : S64x1x128.ReducesTo [0, 1, 2] S_

variable [Facts]

def fn {F : FTy → Type} [FloatOps F] (main_arg0 : FVec F S64x8192x128 .f32) (main_arg1 : FVec F S64x128x128 .f32) (main_arg2 : FVec F S64x1x128 .f32) : IVec S_ 1 :=
  let main_v0 : FVec F S64x8192x128 .f32 := Host.absf main_arg0
  let main_cst : FVec F S_ .f32 := constant S_ .f32 0x7F800000#32
  let main_v1 : FVec F S64x8192x128 .f32 := broadcastInDim S64x8192x128 ![] bcast_S_S64x8192x128 main_cst
  let main_v2 : IVec S64x8192x128 1 := cmpf .olt main_v0 main_v1
  let main_c : IVec S_ 1 := constantI S_ 1 1#1
  let main_v3 : IVec S_ 1 := (fun x v => Host.reduce IntOp.andi x v reducesTo_S64x8192x128_S_d0_1_2 h_S_) main_v2 main_c
  let main_v4 : FVec F S64x128x128 .f32 := Host.absf main_arg1
  let main_cst_0 : FVec F S_ .f32 := constant S_ .f32 0x7F800000#32
  let main_v5 : FVec F S64x128x128 .f32 := broadcastInDim S64x128x128 ![] bcast_S_S64x128x128 main_cst_0
  let main_v6 : IVec S64x128x128 1 := cmpf .olt main_v4 main_v5
  let main_c_1 : IVec S_ 1 := constantI S_ 1 1#1
  let main_v7 : IVec S_ 1 := (fun x v => Host.reduce IntOp.andi x v reducesTo_S64x128x128_S_d0_1_2 h_S_) main_v6 main_c_1
  let main_v8 : IVec S_ 1 := andi main_v3 main_v7
  let main_v9 : FVec F S64x1x128 .f32 := Host.absf main_arg2
  let main_cst_2 : FVec F S_ .f32 := constant S_ .f32 0x7F800000#32
  let main_v10 : FVec F S64x1x128 .f32 := broadcastInDim S64x1x128 ![] bcast_S_S64x1x128 main_cst_2
  let main_v11 : IVec S64x1x128 1 := cmpf .olt main_v9 main_v10
  let main_c_3 : IVec S_ 1 := constantI S_ 1 1#1
  let main_v12 : IVec S_ 1 := (fun x v => Host.reduce IntOp.andi x v reducesTo_S64x1x128_S_d0_1_2 h_S_) main_v11 main_c_3
  let main_v13 : IVec S_ 1 := andi main_v8 main_v12
  main_v13
-- ==== Kernel.lean ====
abbrev S64x8192x128 : Shape := ⟨3, ![64, 8192, 128]⟩
abbrev S64x128x128 : Shape := ⟨3, ![64, 128, 128]⟩
abbrev S64x1x128 : Shape := ⟨3, ![64, 1, 128]⟩
abbrev S1x8192x128 : Shape := ⟨3, ![1, 8192, 128]⟩
abbrev S1x128x128 : Shape := ⟨3, ![1, 128, 128]⟩
abbrev S1x1x128 : Shape := ⟨3, ![1, 1, 128]⟩
abbrev S8192x128 : Shape := ⟨2, ![8192, 128]⟩
abbrev S128x128 : Shape := ⟨2, ![128, 128]⟩
abbrev S1x128 : Shape := ⟨2, ![1, 128]⟩

abbrev nBuf : Space → Nat
  | .hbm => 4
  | .vmem => 8
  | .smem => 0
  | _ => 0

abbrev bufTy : (tb : Table) → Fin (tcTables nBuf tb) → BufTy
  | .hbm, ⟨0, _⟩ => ⟨S64x8192x128, .f32⟩
  | .hbm, ⟨1, _⟩ => ⟨S64x128x128, .f32⟩
  | .hbm, ⟨2, _⟩ => ⟨S64x1x128, .f32⟩
  | .hbm, ⟨3, _⟩ => ⟨S64x8192x128, .f32⟩
  | .local _ .vmem, ⟨0, _⟩ => ⟨S1x8192x128, .f32⟩
  | .local _ .vmem, ⟨1, _⟩ => ⟨S1x8192x128, .f32⟩
  | .local _ .vmem, ⟨2, _⟩ => ⟨S1x128x128, .f32⟩
  | .local _ .vmem, ⟨3, _⟩ => ⟨S1x128x128, .f32⟩
  | .local _ .vmem, ⟨4, _⟩ => ⟨S1x1x128, .f32⟩
  | .local _ .vmem, ⟨5, _⟩ => ⟨S1x1x128, .f32⟩
  | .local _ .vmem, ⟨6, _⟩ => ⟨S1x8192x128, .f32⟩
  | .local _ .vmem, ⟨7, _⟩ => ⟨S1x8192x128, .f32⟩
  | _, _ => ⟨S64x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x8192x128_S1x8192x128_0_0_0 : ∀ a, (![0, 0, 0] : Fin 3 → Nat) a + S1x8192x128.size a ≤ S1x8192x128.size a
  h_S1x8192x128 : 0 < S1x8192x128.numel
  shapeCasts_S1x8192x128_S8192x128 : S1x8192x128.ShapeCasts S8192x128
  bitsLt_bf16_f32 : FTy.bits .bf16 < FTy.bits .f32
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  broadcasts_S1x128_S8192x128 : S1x128.Broadcasts S8192x128
  shapeCasts_S8192x128_S1x8192x128 : S8192x128.ShapeCasts S1x8192x128
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x128.size a ≤ S64x8192x128.size a
  hwx0_0 : ∀ i : grid0.Coords, EltTy.bits .f32 = 32 ∨ (Rect.block (s := S64x8192x128) S1x8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128.size a ≤ S64x128x128.size a
  hwx0_1 : ∀ i : grid0.Coords, EltTy.bits .f32 = 32 ∨ (Rect.block (s := S64x128x128) S1x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S64x1x128.size a
  hwx0_2 : ∀ i : grid0.Coords, EltTy.bits .f32 = 32 ∨ (Rect.block (s := S64x1x128) S1x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8192x128.size a ≤ S64x8192x128.size a
  hwx0_3 : ∀ i : grid0.Coords, EltTy.bits .f32 = 32 ∨ (Rect.block (s := S64x8192x128) S1x8192x128.size (cc0_transform_3 i) (hinb0_3 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_arg0) S1x8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x8192x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x8192x128 : Shape := ⟨3, ![64, 8192, 128]⟩
abbrev S64x128x128 : Shape := ⟨3, ![64, 128, 128]⟩
abbrev S64x1x128 : Shape := ⟨3, ![64, 1, 128]⟩

abbrev nBuf : Space → Nat
  | .hbm => 6
  | .vmem => 0
  | .smem => 0
  | _ => 0

abbrev bufTy : (tb : Table) → Fin (tcTables nBuf tb) → BufTy
  | .hbm, ⟨0, _⟩ => ⟨S64x8192x128, .f32⟩
  | .hbm, ⟨1, _⟩ => ⟨S64x128x128, .f32⟩
  | .hbm, ⟨2, _⟩ => ⟨S64x1x128, .f32⟩
  | .hbm, ⟨3, _⟩ => ⟨S64x8192x128, .f32⟩
  | .hbm, ⟨4, _⟩ => ⟨S64x8192x128, .f32⟩
  | .hbm, ⟨5, _⟩ => ⟨S64x8192x128, .f32⟩
  | _, _ => ⟨S64x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  bcast_S64x1x128_S64x8192x128_0_1_2 : S64x1x128.BroadcastsInDim S64x8192x128 (![0, 1, 2] : Fin 3 → Fin S64x8192x128.rank)
  dot_S64x8192x128_S64x128x128_S64x8192x128_2_1_1_2_0_0_wf : DotDims.WF S64x8192x128 S64x128x128 S64x8192x128 [2] [1] [1] [2] [0] [0]

variable [Facts₀]

def dot_S64x8192x128_S64x128x128_S64x8192x128_2_1_1_2_0_0 : DotDims S64x8192x128 S64x128x128 S64x8192x128 where
  lhsContracting := [2]
  rhsContracting := [1]
  lhsNonContracting := [1]
  rhsNonContracting := [2]
  lhsBatch := [0]
  rhsBatch := [0]
  wf := dot_S64x8192x128_S64x128x128_S64x8192x128_2_1_1_2_0_0_wf

class Facts : Prop extends Facts₀ where

variable [Facts]
-- ==== Proof.LayerAffine.lean ====
/-
  One affine map per layer, on the extended reals.

  Three arrays: `x`, 64 layers of 8192 rows of 128 features; `w`, 64 layers of 128 × 128 matrices; `b`, 64 layers
  of one row of 128. The map sends them to the array whose entry at layer `l`, row `r`, column `o` is

      (∑ k < 128, x[l, r, k] · w[l, k, o]) + b[l, 0, o] :

  row `r` of layer `l` times that layer's matrix, plus that layer's bias row. An entry reads one row of `x`, one
  column of one matrix of `w` and one entry of `b`, all of its own layer, and nothing of any other layer. The sum
  is a finite sum in the commutative monoid of the extended reals, so it has no order; no product is distributed
  over a sum and nothing is cancelled, so the map is one function of its arguments whether or not they are finite.
-/
import Idealize.ShloMosaic.PureOps.Ideal
import Idealize.ShloMosaic.Lib.ValueIdx

noncomputable section

namespace Cert.LayerAffine

open Idealize.ShloMosaic Idealize.ShloMosaic.ValueIdx

/-- The entry at layer `l`, row `r`, column `o`: that row of the layer times column `o` of the layer's matrix,
    plus the layer's bias at `o`. -/
def entry (x : (⟨3, ![64, 8192, 128]⟩ : Shape).Idx → EReal) (w : (⟨3, ![64, 128, 128]⟩ : Shape).Idx → EReal)
    (b : (⟨3, ![64, 1, 128]⟩ : Shape).Idx → EReal) (l : Fin 64) (r : Fin 8192) (o : Fin 128) : EReal :=
  (∑ k : Fin 128, x (ix3 l r k) * w (ix3 l k o)) + b (ix3 l (0 : Fin 1) o)

/-- The whole array: at each index, the entry at the index's three coordinates. -/
def layerAffine (x : (⟨3, ![64, 8192, 128]⟩ : Shape).Idx → EReal) (w : (⟨3, ![64, 128, 128]⟩ : Shape).Idx → EReal)
    (b : (⟨3, ![64, 1, 128]⟩ : Shape).Idx → EReal) : (⟨3, ![64, 8192, 128]⟩ : Shape).Idx → EReal :=
  fun i => entry x w b (i 0) (i 1) (i 2)

/-- At an index written by its coordinates the array holds the entry at those coordinates. -/
theorem layerAffine_ix3 (x : (⟨3, ![64, 8192, 128]⟩ : Shape).Idx → EReal) (w : (⟨3, ![64, 128, 128]⟩ : Shape).Idx → EReal)
    (b : (⟨3, ![64, 1, 128]⟩ : Shape).Idx → EReal) (l : Fin 64) (r : Fin 8192) (o : Fin 128) :
    layerAffine x w b (ix3 l r o) = entry x w b l r o := rfl

end Cert.LayerAffine

end
-- ==== Proof.ReferenceAffine.lean ====
/-
  The reference's result is the per-layer affine map.

  The reference computes, on the host, a product batched over the layer axis — it contracts the feature axis of `x`
  with the row axis of `w`, layer by layer —, spreads `b`'s one row per layer over the layer's 8192 rows, and adds.
  Read at the index (l, r, o): the product is ∑ k, x[l, r, k] · w[l, k, o], the spread bias is b[l, 0, o], and their
  sum is the entry of `Cert.LayerAffine.layerAffine` there. Nothing is re-ordered: the three index functions the
  operations compose are the index constructors of the specification, coordinate by coordinate.
-/
import proofs.«161211_j26680336843599_1_alg».proof.Proof.Gen.ReferenceIdeal.Read
import proofs.«161211_j26680336843599_1_alg».proof.Proof.LayerAffine

noncomputable section

namespace Cert.ReferenceIdeal.Affine

open Cert.ReferenceIdeal Cert.ReferenceIdeal.Read Idealize.ShloMosaic Idealize.ShloMosaic.ValueIdx Cert.LayerAffine

/-- The left operand of the batched product at (l, r, o) and contraction position `k` is read at (l, r, k). -/
theorem left_index (l : Fin 64) (r : Fin 8192) (o : Fin 128) (k : Fin 128) :
    lidx_main_v0 (ix3 l r o) k = ix3 l r k :=
  funext fun a => by match a with | ⟨0, _⟩ => rfl | ⟨1, _⟩ => rfl | ⟨2, _⟩ => rfl

/-- The right operand is read at (l, k, o): the same layer, row `k` of its matrix, the result's column. -/
theorem right_index (l : Fin 64) (r : Fin 8192) (o : Fin 128) (k : Fin 128) :
    ridx_main_v0 (ix3 l r o) k = ix3 l k o :=
  funext fun a => by match a with | ⟨0, _⟩ => rfl | ⟨1, _⟩ => rfl | ⟨2, _⟩ => rfl

/-- The spread bias at (l, r, o) is read at (l, 0, o): the layer's one row, whatever the row `r`. -/
theorem bias_index (l : Fin 64) (r : Fin 8192) (o : Fin 128) :
    idx_main_v1 (ix3 l r o) = ix3 l (0 : Fin 1) o :=
  funext fun a => by match a with | ⟨0, _⟩ => rfl | ⟨1, _⟩ => rfl | ⟨2, _⟩ => rfl

/-- The reference's last stage, as a function of the three argument arrays, is the per-layer affine map. -/
theorem result_eq (x : (⟨S64x8192x128, .f32⟩ : BufTy).Contents (Elt Ideal)) (w : (⟨S64x128x128, .f32⟩ : BufTy).Contents (Elt Ideal))
    (b : (⟨S64x1x128, .f32⟩ : BufTy).Contents (Elt Ideal)) :
    val_main_v2 (F := Ideal) x w b = layerAffine x w b := by
  funext i
  obtain ⟨l, r, o, rfl⟩ : ∃ (l : Fin 64) (r : Fin 8192) (o : Fin 128), i = ix3 l r o := ⟨i 0, i 1, i 2, eq_ix3 i⟩
  rw [val_main_v2_apply, val_main_v0_apply, val_main_v1_apply, layerAffine_ix3, bias_index]
  simp only [left_index, right_index]
  rfl

end Cert.ReferenceIdeal.Affine

end
-- ==== Proof.BlockAffine.lean ====
/-
  What one layer's block of the result holds, entry by entry.

  At a grid point the body has one layer's block of each array: `x0`, 1 × 8192 × 128; `x1`, 1 × 128 × 128; `x2`,
  1 × 1 × 128. It drops the leading unit axis of each, changes the first two to a narrower float format (the
  identity on extended reals), multiplies the 8192 × 128 rows by the 128 × 128 matrix into a zero accumulator, adds
  the one bias row spread over the 8192 rows, and puts the unit axis back. So its entry at (u, r, o) is

      (∑ k < 128, x0[0, r, k] · x1[0, k, o]) + x2[0, 0, o] :

  the matrix product at (r, o) is the accumulator's zero plus the sum over the contracted axis — the columns of the
  rows' block, the rows of the matrix —, and each re-laying reads one entry of its operand.
-/
import proofs.«161211_j26680336843599_1_alg».proof.Proof.Gen.KernelIdeal.Skeleton
import proofs.«161211_j26680336843599_1_alg».proof.Proof.LayerAffine
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx

/-! ## The product of the rows' block with the matrix, at an entry -/

/-- The left operand is read on the result's row … -/
theorem left_row (j : S8192x128.Idx) (q : dot_S8192x128_S128x128_S8192x128_1_0_0_1_n_n.contr.Idx) :
    (dot_S8192x128_S128x128_S8192x128_1_0_0_1_n_n.lhsIdx j q 0).val = (j 0).val := by
  unfold DotDims.lhsIdx
  rw [dif_neg (show ¬(0 : Fin S8192x128.rank) ∈ dot_S8192x128_S128x128_S8192x128_1_0_0_1_n_n.lhsBatch by decide), dif_pos (show (0 : Fin S8192x128.rank) ∈ dot_S8192x128_S128x128_S8192x128_1_0_0_1_n_n.lhsNonContracting by decide)]
  rfl
/-- … at the contracted position; -/
theorem left_col (j : S8192x128.Idx) (q : dot_S8192x128_S128x128_S8192x128_1_0_0_1_n_n.contr.Idx) :
    (dot_S8192x128_S128x128_S8192x128_1_0_0_1_n_n.lhsIdx j q 1).val = (q ⟨0, by decide⟩).val :=
  dot_S8192x128_S128x128_S8192x128_1_0_0_1_n_n.lhsIdx_val_of_single rfl j q
/-- the right operand at the contracted position … -/
theorem right_row (j : S8192x128.Idx) (q : dot_S8192x128_S128x128_S8192x128_1_0_0_1_n_n.contr.Idx) :
    (dot_S8192x128_S128x128_S8192x128_1_0_0_1_n_n.rhsIdx j q 0).val = (q ⟨0, by decide⟩).val :=
  dot_S8192x128_S128x128_S8192x128_1_0_0_1_n_n.rhsIdx_val_of_single rfl j q
/-- … on the result's column. -/
theorem right_col (j : S8192x128.Idx) (q : dot_S8192x128_S128x128_S8192x128_1_0_0_1_n_n.contr.Idx) :
    (dot_S8192x128_S128x128_S8192x128_1_0_0_1_n_n.rhsIdx j q 1).val = (j 1).val := by
  unfold DotDims.rhsIdx
  rw [dif_neg (show ¬(1 : Fin S128x128.rank) ∈ dot_S8192x128_S128x128_S8192x128_1_0_0_1_n_n.rhsBatch by decide), dif_pos (show (1 : Fin S128x128.rank) ∈ dot_S8192x128_S128x128_S8192x128_1_0_0_1_n_n.rhsNonContracting by decide)]
  rfl

/-- The product, into a zero accumulator, of the two operands in the narrower format, at (r, o): the sum over `k` of
    the rows' block at (r, k) times the matrix at (k, o) — the change of format is the identity on extended reals.
    The contraction index has one axis of extent 128; the sum is carried to `Fin 128` along that bijection. -/
theorem product_entry (A : FVec Ideal S8192x128 .f32) (M : FVec Ideal S128x128 .f32) (r : Fin 8192) (o : Fin 128) :
    matmul dot_S8192x128_S128x128_S8192x128_1_0_0_1_n_n none (truncf .bf16 A bitsLt_bf16_f32) (truncf .bf16 M bitsLt_bf16_f32)
        (constant (F := Ideal) S8192x128 .f32 0x00000000#32) (ix2 r o)
      = ∑ k : Fin 128, A (ix2 r k) * M (ix2 k o) := by
  simp only [matmul]
  rw [Ideal.matmul_constant_zero_apply, ← Equiv.sum_comp (contrEquiv1 dot_S8192x128_S128x128_S8192x128_1_0_0_1_n_n 128 rfl rfl).symm]
  refine Finset.sum_congr rfl fun k _ => ?_
  have hk := contrEquiv1_symm_val dot_S8192x128_S128x128_S8192x128_1_0_0_1_n_n 128 rfl rfl k
  have el : dot_S8192x128_S128x128_S8192x128_1_0_0_1_n_n.lhsIdx (ix2 r o) ((contrEquiv1 dot_S8192x128_S128x128_S8192x128_1_0_0_1_n_n 128 rfl rfl).symm k) = ix2 r k := funext fun a => Fin.ext (by
    match a with
    | ⟨0, _⟩ => exact left_row _ _
    | ⟨1, _⟩ => exact (left_col _ _).trans hk)
  have er : dot_S8192x128_S128x128_S8192x128_1_0_0_1_n_n.rhsIdx (ix2 r o) ((contrEquiv1 dot_S8192x128_S128x128_S8192x128_1_0_0_1_n_n 128 rfl rfl).symm k) = ix2 k o := funext fun a => Fin.ext (by
    match a with
    | ⟨0, _⟩ => exact (right_row _ _).trans hk
    | ⟨1, _⟩ => exact right_col _ _)
  rw [el, er]
  rfl

/-! ## The body's stored value, at an entry -/

/-- The value the body stores, at (u, r, o), from the three blocks it loaded. -/
theorem stored_entry (x0 : Vec Ideal S1x8192x128 .f32) (x1 : Vec Ideal S1x128x128 .f32) (x2 : Vec Ideal S1x1x128 .f32)
    (u : Fin 1) (r : Fin 8192) (o : Fin 128) :
    k0_pay1 (F := Ideal) x0 x1 x2 (ix3 u r o)
      = (∑ k : Fin 128, x0 (ix3 (0 : Fin 1) r k) * x1 (ix3 (0 : Fin 1) k o)) + x2 (ix3 (0 : Fin 1) (0 : Fin 1) o) := by
  unfold k0_pay1
  -- the unit axis put back: the entry at (u, r, o) is the sum's entry at (r, o)
  refine (shapeCast_ab_1ab_apply _ _ u r o).trans ?_
  refine (addf_apply _ _ _).trans ?_
  -- the bias row, spread over the rows and its unit axis dropped
  have hb : broadcastTo S8192x128 (shapeCast S1x128 x2 shapeCasts_S1x1x128_S1x128) broadcasts_S1x128_S8192x128 (ix2 r o)
      = x2 (ix3 (0 : Fin 1) (0 : Fin 1) o) :=
    (broadcastTo_1b_ab_apply _ _ r o).trans (shapeCast_1ab_ab_apply _ _ (0 : Fin 1) o)
  -- the product, its operands' format changes the identity and their unit axes dropped
  have hp := product_entry (shapeCast S8192x128 x0 shapeCasts_S1x8192x128_S8192x128)
    (shapeCast S128x128 x1 shapeCasts_S1x128x128_S128x128) r o
  rw [hb, hp]
  refine congrArg (· + x2 (ix3 (0 : Fin 1) (0 : Fin 1) o)) (Finset.sum_congr rfl fun k _ => ?_)
  rw [shapeCast_1ab_ab_apply x0 shapeCasts_S1x8192x128_S8192x128 r k, shapeCast_1ab_ab_apply x1 shapeCasts_S1x128x128_S128x128 k o]

/-- So, when the three blocks are layer `l`'s — the rows' block reads `X` at layer `l`, the matrix block `W` at layer
    `l`, the bias block `B` at layer `l` —, the stored value at (u, r, o) is the per-layer affine map's entry at
    (l, r, o). -/
theorem stored_is_layer (X : (⟨3, ![64, 8192, 128]⟩ : Shape).Idx → EReal) (W : (⟨3, ![64, 128, 128]⟩ : Shape).Idx → EReal)
    (B : (⟨3, ![64, 1, 128]⟩ : Shape).Idx → EReal)
    (x0 : Vec Ideal S1x8192x128 .f32) (x1 : Vec Ideal S1x128x128 .f32) (x2 : Vec Ideal S1x1x128 .f32) (l : Fin 64)
    (h0 : ∀ (r : Fin 8192) (k : Fin 128), x0 (ix3 (0 : Fin 1) r k) = X (ix3 l r k))
    (h1 : ∀ (k : Fin 128) (o : Fin 128), x1 (ix3 (0 : Fin 1) k o) = W (ix3 l k o))
    (h2 : ∀ o : Fin 128, x2 (ix3 (0 : Fin 1) (0 : Fin 1) o) = B (ix3 l (0 : Fin 1) o))
    (u : Fin 1) (r : Fin 8192) (o : Fin 128) :
    k0_pay1 (F := Ideal) x0 x1 x2 (ix3 u r o) = Cert.LayerAffine.entry X W B l r o := by
  rw [stored_entry, h2 o]
  unfold Cert.LayerAffine.entry
  exact congrArg (· + B (ix3 l (0 : Fin 1) o)) (Finset.sum_congr rfl fun k _ => by rw [h0 r k, h1 k o])

end Cert.KernelIdeal.Block

end
-- ==== Proof.LayersCover.lean ====
/-
  The result array is the per-layer affine map of the argument arrays.

  The grid has 64 points, one per layer. At a point the four windows' blocks are that layer's: rows 0 … 8191 and
  columns 0 … 127 of layer `l` of `x` and of the result, the whole matrix of layer `l` of `w`, the one row of
  layer `l` of `b` — every window's block index is (l, 0, 0), with one `l` for the four. So what the point writes
  back, the body's stored value of the three input blocks, is block `l` of the per-layer affine map of the argument
  arrays: the stored entry at (0, r, o) reads x[l, r, ·], w[l, ·, o] and b[l, 0, o]. Every layer is some point's, so
  the 64 blocks cover the result array, and after the run it is that map of the arguments, which are unchanged.
-/
import proofs.«161211_j26680336843599_1_alg».proof.Proof.Gen.KernelIdeal.Value
import proofs.«161211_j26680336843599_1_alg».proof.Proof.BlockAffine
import proofs.«161211_j26680336843599_1_alg».proof.Proof.LayerAffine
import Idealize.ShloMosaic.Lib.Pipeline.Value
import Idealize.ShloMosaic.Lib.ValueIdx

noncomputable section

namespace Cert.KernelIdeal.Layers

open Cert.KernelIdeal Cert.KernelIdeal.Gen Cert.KernelIdeal.Value Idealize.ShloMosaic Idealize.ShloMosaic.TcCoe Idealize.SL.Sem
open Idealize.ShloMosaic.ValueIdx Cert.LayerAffine
open Idealize.ShloMosaic.Pipeline (Dat)

variable (m : (ℓ : Loc nD τ sig) → Buf (Elt Ideal) ℓ) (ρ : Dev nD → PrngReg)

/-- The body's loads and its store start at the block's origin. -/
theorem origin_zero : (![0, 0, 0] : Fin 3 → Nat) = fun _ => 0 := funext fun a => by fin_cases a <;> rfl

/-! ## The index maps, over the 64 grid points -/

/-- At every point the three input windows' block indices are the output window's on the layer axis and zero on the
    other two, as are the output's own; and the layer is below 64. -/
theorem block_index : ∀ t : Fin cfg0.N,
    win0_0.index t (0 : Fin 3) = win0_3.index t (0 : Fin 3) ∧ win0_0.index t (1 : Fin 3) = 0 ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (0 : Fin 3) < 64 ∧ win0_3.index t (1 : Fin 3) = 0 ∧ win0_3.index t (2 : Fin 3) = 0 :=
  (by decide +kernel : ∀ t : Fin grid0.N, _)

/-- Every layer is some point's. -/
theorem layer_onto : ∀ q : Fin 64, ∃ t : Fin cfg0.N, win0_3.index t = ![q.val, 0, 0] :=
  (by decide +kernel : ∀ q : Fin 64, ∃ t : Fin grid0.N, win0_3.index t = ![q.val, 0, 0])

/-! ## The input blocks at a point are the point's layer of the argument arrays -/

/-- The rows' block at point `t`, at (0, r, k), is `x` at (l, r, k), `l` the point's layer. -/
theorem rows_block (c : Dev nD) (t : Fin cfg0.N) (l : Fin 64) (hl : l.val = win0_3.index t (0 : Fin 3)) (r : Fin 8192) (k : Fin 128) :
    (iblk m c 0 t : Vec Ideal S1x8192x128 .f32) (ix3 (0 : Fin 1) r k)
      = (V m c main_arg0 : S64x8192x128.Idx → EReal) (ix3 l r k) := by
  obtain ⟨e0, e1, e2, -⟩ := block_index t
  unfold iblk
  rw [View.read_apply]
  show V m c main_arg0 _ = V m c main_arg0 _
  congr 1
  funext a
  apply Fin.ext
  match a with
  | ⟨0, _⟩ => show win0_0.index t (0 : Fin 3) * 1 + 1 * 0 = l.val; omega
  | ⟨1, _⟩ => show win0_0.index t (1 : Fin 3) * 8192 + 1 * r.val = r.val; omega
  | ⟨2, _⟩ => show win0_0.index t (2 : Fin 3) * 128 + 1 * k.val = k.val; omega

/-- The matrix block at point `t`, at (0, k, o), is `w` at (l, k, o). -/
theorem matrix_block (c : Dev nD) (t : Fin cfg0.N) (l : Fin 64) (hl : l.val = win0_3.index t (0 : Fin 3)) (k : Fin 128) (o : Fin 128) :
    (iblk m c 1 t : Vec Ideal S1x128x128 .f32) (ix3 (0 : Fin 1) k o)
      = (V m c main_arg1 : S64x128x128.Idx → EReal) (ix3 l k o) := by
  obtain ⟨-, -, -, e0, e1, e2, -⟩ := block_index t
  unfold iblk
  rw [View.read_apply]
  show V m c main_arg1 _ = V m c main_arg1 _
  congr 1
  funext a
  apply Fin.ext
  match a with
  | ⟨0, _⟩ => show win0_1.index t (0 : Fin 3) * 1 + 1 * 0 = l.val; omega
  | ⟨1, _⟩ => show win0_1.index t (1 : Fin 3) * 128 + 1 * k.val = k.val; omega
  | ⟨2, _⟩ => show win0_1.index t (2 : Fin 3) * 128 + 1 * o.val = o.val; omega

/-- The bias block at point `t`, at (0, 0, o), is `b` at (l, 0, o). -/
theorem bias_block (c : Dev nD) (t : Fin cfg0.N) (l : Fin 64) (hl : l.val = win0_3.index t (0 : Fin 3)) (o : Fin 128) :
    (iblk m c 2 t : Vec Ideal S1x1x128 .f32) (ix3 (0 : Fin 1) (0 : Fin 1) o)
      = (V m c main_arg2 : S64x1x128.Idx → EReal) (ix3 l (0 : Fin 1) o) := by
  obtain ⟨-, -, -, -, -, -, e0, e1, e2, -⟩ := block_index t
  unfold iblk
  rw [View.read_apply]
  show V m c main_arg2 _ = V m c main_arg2 _
  congr 1
  funext a
  apply Fin.ext
  match a with
  | ⟨0, _⟩ => show win0_2.index t (0 : Fin 3) * 1 + 1 * 0 = l.val; omega
  | ⟨1, _⟩ => show win0_2.index t (1 : Fin 3) * 1 + 1 * 0 = 0; omega
  | ⟨2, _⟩ => show win0_2.index t (2 : Fin 3) * 128 + 1 * o.val = o.val; omega

/-! ## What a point writes back -/

/-- The stored value at an entry of the block is the per-layer affine map at the array index under that entry. -/
theorem entry_of_block (c : Dev nD) (t : Fin cfg0.N) (y : S1x8192x128.Idx) :
    k0_pay1 (F := Ideal) (iblk m c 0 t) (iblk m c 1 t) (iblk m c 2 t) y
      = layerAffine (V m c main_arg0) (V m c main_arg1) (V m c main_arg2) (((cfg0.win 3).blk t).view.emb y) := by
  obtain ⟨-, -, -, -, -, -, -, -, -, e0, e1, e2⟩ := block_index t
  obtain ⟨u, r, o, rfl⟩ : ∃ (u : Fin 1) (r : Fin 8192) (o : Fin 128), y = ix3 u r o := ⟨y 0, y 1, y 2, eq_ix3 y⟩
  -- the array index under the block's entry (u, r, o): the point's layer, row r, column o
  have hi : ((cfg0.win 3).blk t).view.emb (ix3 u r o) = ix3 (⟨win0_3.index t (0 : Fin 3), e0⟩ : Fin 64) r o := by
    funext a
    apply Fin.ext
    have hu : u.val < 1 := u.isLt
    match a with
    | ⟨0, _⟩ => show win0_3.index t (0 : Fin 3) * 1 + 1 * u.val = win0_3.index t (0 : Fin 3); omega
    | ⟨1, _⟩ => show win0_3.index t (1 : Fin 3) * 8192 + 1 * r.val = r.val; omega
    | ⟨2, _⟩ => show win0_3.index t (2 : Fin 3) * 128 + 1 * o.val = o.val; omega
  rw [hi, layerAffine_ix3]
  exact Block.stored_is_layer (V m c main_arg0) (V m c main_arg1) (V m c main_arg2) (iblk m c 0 t) (iblk m c 1 t) (iblk m c 2 t)
    ⟨win0_3.index t (0 : Fin 3), e0⟩ (fun r k => rows_block m c t _ rfl r k) (fun k o => matrix_block m c t _ rfl k o)
    (fun o => bias_block m c t _ rfl o) u r o

/-- WHAT POINT `t` WRITES BACK is block `t` of the per-layer affine map of the argument arrays. -/
theorem flushed_eq (c : Dev nD) (t : Fin cfg0.N) :
    (dats m 0 c).flushed 3 t
      = ((cfg0.win 3).blk t).view.read (Elt Ideal) (layerAffine (V m c main_arg0) (V m c main_arg1) (V m c main_arg2)) := by
  rw [flushed3]
  unfold out0_3
  rw [View.canon_unit_zero origin_zero]
  simp only [View.ld_unit_zero (S := S1x8192x128) origin_zero, View.ld_unit_zero (S := S1x128x128) origin_zero,
    View.ld_unit_zero (S := S1x1x128) origin_zero]
  funext y
  show k0_pay1 (F := Ideal) (iblk m c 0 t) (iblk m c 1 t) (iblk m c 2 t) y
      = layerAffine (V m c main_arg0) (V m c main_arg1) (V m c main_arg2) (((cfg0.win 3).blk t).view.emb y)
  exact entry_of_block m c t y

/-! ## The blocks cover the array -/

/-- An index of the result array is in point `t`'s block iff each coordinate is in the block's range on its axis. -/
theorem mem_block (t : Fin cfg0.N) (i : S64x8192x128.Idx) :
    i ∈ ((cfg0.win 3).blk t).view.set ↔ ∀ a : Fin 3, win0_3.index t a * S1x8192x128.size a ≤ (i a).val
      ∧ (i a).val < win0_3.index t a * S1x8192x128.size a + S1x8192x128.size a := by
  show i ∈ ((View.whole main_v0).slice (win0_3.rect t)).set ↔ _
  rw [View.set_slice_whole, Rect.mem_set_unit]
  exact Iff.rfl

/-- Every index of the result array is in the block of the point of its layer. -/
theorem covered (i : S64x8192x128.Idx) :
    ∃ t : Fin cfg0.N, (cfg0.win 3).flush t = true ∧ i ∈ ((cfg0.win 3).blk t).view.set := by
  have hi0 : (i 0).val < 64 := (i 0).isLt
  have hi1 : (i 1).val < 8192 := (i 1).isLt
  have hi2 : (i 2).val < 128 := (i 2).isLt
  obtain ⟨t, ht⟩ := layer_onto ⟨(i 0).val, hi0⟩
  have q0 : win0_3.index t (0 : Fin 3) = (i 0).val := congrFun ht 0
  have q1 : win0_3.index t (1 : Fin 3) = 0 := congrFun ht 1
  have q2 : win0_3.index t (2 : Fin 3) = 0 := congrFun ht 2
  refine ⟨t, flush0_3 t, ?_⟩
  rw [mem_block]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 8192 ≤ (i 1).val ∧ (i 1).val < win0_3.index t (1 : Fin 3) * 8192 + 8192; omega
  | ⟨2, _⟩ => show win0_3.index t (2 : Fin 3) * 128 ≤ (i 2).val ∧ (i 2).val < win0_3.index t (2 : Fin 3) * 128 + 128; omega

/-! ## The array after the run, and the run -/

/-- THE RESULT ARRAY after the run is the per-layer affine map of the argument arrays. -/
theorem final (c : Dev nD) :
    (dats m 0 c).arrAt 3 cfg0.N
      = layerAffine (m ((c : Thread nD τ).loc main_arg0)) (m ((c : Thread nD τ).loc main_arg1)) (m ((c : Thread nD τ).loc main_arg2)) :=
  (dats m 0 c).arrAt_eq_of_cover 3 _ (fun t _ => flushed_eq m c t) covered

/-- The run, read: the result array at the per-layer affine map of the arguments, the arguments unchanged. -/
theorem run : θ_run defs (onTc (τ := τ) (main (F := Ideal))) ⟨m, fun _ => 0, ρ⟩ fun r => ∀ c : Dev nD,
      r.2.mem ((c : Thread nD τ).loc main_v0)
        = layerAffine (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Layers

end
-- ==== Proof.lean ====
/-
  The kernel and its reference compute one function on the extended reals.

  Both take `x` (64 layers of 8192 rows of 128 features), `w` (64 layers of 128 × 128 matrices) and `b` (64 layers
  of one row of 128), and both return the array whose entry at layer `l`, row `r`, column `o` is

      (∑ k < 128, x[l, r, k] · w[l, k, o]) + b[l, 0, o]            (Proof/LayerAffine.lean).

  The reference gets there by one product batched over the layers, each layer's bias row spread over the layer's
  rows, and an addition (Proof/ReferenceAffine.lean). The kernel goes layer by layer: at each of its 64 grid points it
  loads that layer's block of each array, narrows the two operands' float format — the identity on extended reals —,
  multiplies the rows by the matrix into a zero accumulator, adds the bias row, and stores the layer's block of the
  result (Proof/BlockAffine.lean); the 64 blocks are disjoint layers and cover the result (Proof/LayersCover.lean).
  At every entry the two programs add the same 128 products and the same bias entry, so nothing is used beyond
  reading each operation at an index: no distributive law, no cancellation, and the inputs' finiteness is never
  opened.

  Each program's frame — it terminates, faults nowhere and leaves its argument arrays as they were — is, for the
  kernel at both instances, its generated frame theorem, and for the reference its generated run with the result
  dropped. The idealization rewrote no operation of the kernel, so `preserves` asks nothing.
-/
import proofs.«161211_j26680336843599_1_alg».proof.Defs
import proofs.«161211_j26680336843599_1_alg».proof.Proof.Gen.Kernel
import proofs.«161211_j26680336843599_1_alg».proof.Proof.Gen.Kernel.Frame
import proofs.«161211_j26680336843599_1_alg».proof.Proof.Gen.KernelIdeal
import proofs.«161211_j26680336843599_1_alg».proof.Proof.Gen.KernelIdeal.Frame
import proofs.«161211_j26680336843599_1_alg».proof.Proof.Gen.KernelIdeal.Value
import proofs.«161211_j26680336843599_1_alg».proof.Proof.Gen.ReferenceIdeal
import proofs.«161211_j26680336843599_1_alg».proof.Proof.Gen.ReferenceIdeal.Run
import proofs.«161211_j26680336843599_1_alg».proof.Proof.Gen.ReferenceIdeal.Read
import proofs.«161211_j26680336843599_1_alg».proof.Proof.Gen.Pre_finite_inputs
import proofs.«161211_j26680336843599_1_alg».proof.Proof.LayerAffine
import proofs.«161211_j26680336843599_1_alg».proof.Proof.ReferenceAffine
import proofs.«161211_j26680336843599_1_alg».proof.Proof.BlockAffine
import proofs.«161211_j26680336843599_1_alg».proof.Proof.LayersCover
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, with what it says of the result dropped, is its frame. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten: there is nothing to preserve. -/
theorem preserves : Cert.preserves_Kernel_KernelIdeal := trivial

/-- From memories that agree on the three arguments, the kernel's result array ends at the per-layer affine map of its
    arguments (Proof/LayersCover.lean) and the reference's at the same map of its own (Proof/ReferenceAffine.lean),
    which are the same arrays: equal results, entry by entry. -/
theorem algebraic : Cert.algebraic_KernelIdeal_ReferenceIdeal := by
  intro m ρ m' ρ' _ hagree
  refine ⟨_, Cert.KernelIdeal.Layers.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.Affine.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
